-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x2048x64 : Shape := ⟨4, ![4, 12, 2048, 64]⟩
abbrev S12x1x1 : Shape := ⟨3, ![12, 1, 1]⟩
abbrev S_ : Shape := ⟨0, ![]⟩

class Facts : Prop where
  bcast_S_S4x12x2048x64 : S_.BroadcastsInDim S4x12x2048x64 (![] : Fin 0 → Fin S4x12x2048x64.rank)
  reducesTo_S4x12x2048x64_S_d0_1_2_3 : S4x12x2048x64.ReducesTo [0, 1, 2, 3] S_
  h_S_ : 0 < S_.numel
  bcast_S_S12x1x1 : S_.BroadcastsInDim S12x1x1 (![] : Fin 0 → Fin S12x1x1.rank)
  reducesTo_S12x1x1_S_d0_1_2 : S12x1x1.ReducesTo [0, 1, 2] S_

variable [Facts]

def fn_part1 {F : FTy → Type} [FloatOps F] (main_v13 : IVec S_ 1) (main_v16 : IVec S12x1x1 1) : IVec S_ 1 :=
  let main_c_5 : IVec S_ 1 := constantI S_ 1 1#1
  let main_v17 : IVec S_ 1 := (fun x v => Host.reduce IntOp.andi x v reducesTo_S12x1x1_S_d0_1_2 h_S_) main_v16 main_c_5
  let main_v18 : IVec S_ 1 := andi main_v13 main_v17
  main_v18

def fn {F : FTy → Type} [FloatOps F] (main_arg0 : FVec F S4x12x2048x64 .f32) (main_arg1 : FVec F S4x12x2048x64 .f32) (main_arg2 : FVec F S4x12x2048x64 .f32) (main_arg3 : FVec F S12x1x1 .f32) : IVec S_ 1 :=
  let main_v0 : FVec F S4x12x2048x64 .f32 := Host.absf main_arg0
  let main_cst : FVec F S_ .f32 := constant S_ .f32 0x7F800000#32
  let main_v1 : FVec F S4x12x2048x64 .f32 := broadcastInDim S4x12x2048x64 ![] bcast_S_S4x12x2048x64 main_cst
  let main_v2 : IVec S4x12x2048x64 1 := cmpf .olt main_v0 main_v1
  let main_c : IVec S_ 1 := constantI S_ 1 1#1
  let main_v3 : IVec S_ 1 := (fun x v => Host.reduce IntOp.andi x v reducesTo_S4x12x2048x64_S_d0_1_2_3 h_S_) main_v2 main_c
  let main_v4 : FVec F S4x12x2048x64 .f32 := Host.absf main_arg1
  let main_cst_0 : FVec F S_ .f32 := constant S_ .f32 0x7F800000#32
  let main_v5 : FVec F S4x12x2048x64 .f32 := broadcastInDim S4x12x2048x64 ![] bcast_S_S4x12x2048x64 main_cst_0
  let main_v6 : IVec S4x12x2048x64 1 := cmpf .olt main_v4 main_v5
  let main_c_1 : IVec S_ 1 := constantI S_ 1 1#1
  let main_v7 : IVec S_ 1 := (fun x v => Host.reduce IntOp.andi x v reducesTo_S4x12x2048x64_S_d0_1_2_3 h_S_) main_v6 main_c_1
  let main_v8 : IVec S_ 1 := andi main_v3 main_v7
  let main_v9 : FVec F S4x12x2048x64 .f32 := Host.absf main_arg2
  let main_cst_2 : FVec F S_ .f32 := constant S_ .f32 0x7F800000#32
  let main_v10 : FVec F S4x12x2048x64 .f32 := broadcastInDim S4x12x2048x64 ![] bcast_S_S4x12x2048x64 main_cst_2
  let main_v11 : IVec S4x12x2048x64 1 := cmpf .olt main_v9 main_v10
  let main_c_3 : IVec S_ 1 := constantI S_ 1 1#1
  let main_v12 : IVec S_ 1 := (fun x v => Host.reduce IntOp.andi x v reducesTo_S4x12x2048x64_S_d0_1_2_3 h_S_) main_v11 main_c_3
  let main_v13 : IVec S_ 1 := andi main_v8 main_v12
  let main_v14 : FVec F S12x1x1 .f32 := Host.absf main_arg3
  let main_cst_4 : FVec F S_ .f32 := constant S_ .f32 0x7F800000#32
  let main_v15 : FVec F S12x1x1 .f32 := broadcastInDim S12x1x1 ![] bcast_S_S12x1x1 main_cst_4
  let main_v16 : IVec S12x1x1 1 := cmpf .olt main_v14 main_v15
  fn_part1 (F := F) main_v13 main_v16
-- ==== Kernel.lean ====
abbrev S4x12x2048x64 : Shape := ⟨4, ![4, 12, 2048, 64]⟩
abbrev S12x1x1 : Shape := ⟨3, ![12, 1, 1]⟩
abbrev S_ : Shape := ⟨0, ![]⟩
abbrev S1x1x1024x64 : Shape := ⟨4, ![1, 1, 1024, 64]⟩
abbrev S1x1x2048x64 : Shape := ⟨4, ![1, 1, 2048, 64]⟩
abbrev S1x1x1 : Shape := ⟨3, ![1, 1, 1]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S4x12x2048x64, .f32⟩
  | .hbm, ⟨1, _⟩ => ⟨S4x12x2048x64, .f32⟩
  | .hbm, ⟨2, _⟩ => ⟨S4x12x2048x64, .f32⟩
  | .hbm, ⟨3, _⟩ => ⟨S12x1x1, .f32⟩
  | .hbm, ⟨4, _⟩ => ⟨S_, .f32⟩
  | .hbm, ⟨5, _⟩ => ⟨S12x1x1, .f32⟩
  | .hbm, ⟨6, _⟩ => ⟨S12x1x1, .f32⟩
  | .hbm, ⟨7, _⟩ => ⟨S12x1x1, .f32⟩
  | .hbm, ⟨8, _⟩ => ⟨S4x12x2048x64, .bf16⟩
  | .hbm, ⟨9, _⟩ => ⟨S4x12x2048x64, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .bf16⟩
  | .local _ .vmem, ⟨5, _⟩ => ⟨S1x1x2048x64, .bf16⟩
  | .local _ .vmem, ⟨6, _⟩ => ⟨S1x1x1, .f32⟩
  | .local _ .vmem, ⟨7, _⟩ => ⟨S1x1x1, .f32⟩
  | .local _ .vmem, ⟨8, _⟩ => ⟨S1x1x1024x64, .f32⟩
  | .local _ .vmem, ⟨9, _⟩ => ⟨S1x1x1024x64, .f32⟩
  | _, _ => ⟨S4x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 12, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  bcast_S_S12x1x1 : S_.BroadcastsInDim S12x1x1 (![] : Fin 0 → Fin S12x1x1.rank)
  bitsLt_bf16_f32 : FTy.bits .bf16 < FTy.bits .f32
  inb_S1x1x1_S1x1x1_0_0_0 : ∀ a, (![0, 0, 0] : Fin 3 → Nat) a + S1x1x1.size a ≤ S1x1x1.size a
  h_S1x1x1 : 0 < S1x1x1.numel
  inpos_S1x1x1_p0_0_0 : ∀ a, (![0, 0, 0] : Fin 3 → Nat) a < S1x1x1.size a
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1x1024x64 : S1024x64.ShapeCasts S1x1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S4x12x2048x64.size a
  hwx0_0 : ∀ i : grid0.Coords, EltTy.bits .f32 = 32 ∨ (Rect.block (s := S4x12x2048x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x12x2048x64.size a
  hwx0_1 : ∀ i : grid0.Coords, EltTy.bits .f32 = 32 ∨ (Rect.block (s := S4x12x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x12x2048x64.size a
  hwx0_2 : ∀ i : grid0.Coords, EltTy.bits .bf16 = 32 ∨ (Rect.block (s := S4x12x2048x64) S1x1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S12x1x1.size a
  hwx0_3 : ∀ i : grid0.Coords, EltTy.bits .f32 = 32 ∨ (Rect.block (s := S12x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S4x12x2048x64.size a
  hwx0_4 : ∀ i : grid0.Coords, EltTy.bits .f32 = 32 ∨ (Rect.block (s := S4x12x2048x64) S1x1x1024x64.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x12x2048x64 : Shape := ⟨4, ![4, 12, 2048, 64]⟩
abbrev S12x1x1 : Shape := ⟨3, ![12, 1, 1]⟩
abbrev S_ : Shape := ⟨0, ![]⟩
abbrev S4x12x2048x2048 : Shape := ⟨4, ![4, 12, 2048, 2048]⟩
abbrev S1x12x1x1 : Shape := ⟨4, ![1, 12, 1, 1]⟩
abbrev S4x12x2048 : Shape := ⟨3, ![4, 12, 2048]⟩
abbrev S4x12x2048x1 : Shape := ⟨4, ![4, 12, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x12x2048x64, .f32⟩
  | .hbm, ⟨1, _⟩ => ⟨S4x12x2048x64, .f32⟩
  | .hbm, ⟨2, _⟩ => ⟨S4x12x2048x64, .f32⟩
  | .hbm, ⟨3, _⟩ => ⟨S12x1x1, .f32⟩
  | .hbm, ⟨4, _⟩ => ⟨S_, .f32⟩
  | .hbm, ⟨5, _⟩ => ⟨S12x1x1, .f32⟩
  | .hbm, ⟨6, _⟩ => ⟨S12x1x1, .f32⟩
  | .hbm, ⟨7, _⟩ => ⟨S12x1x1, .f32⟩
  | .hbm, ⟨8, _⟩ => ⟨S4x12x2048x2048, .f32⟩
  | .hbm, ⟨9, _⟩ => ⟨S1x12x1x1, .f32⟩
  | .hbm, ⟨10, _⟩ => ⟨S4x12x2048x2048, .f32⟩
  | .hbm, ⟨11, _⟩ => ⟨S4x12x2048x2048, .f32⟩
  | .hbm, ⟨12, _⟩ => ⟨S_, .f32⟩
  | .hbm, ⟨13, _⟩ => ⟨S4x12x2048, .f32⟩
  | .hbm, ⟨14, _⟩ => ⟨S_, .f32⟩
  | .hbm, ⟨15, _⟩ => ⟨S4x12x2048, .f32⟩
  | .hbm, ⟨16, _⟩ => ⟨S4x12x2048, .f32⟩
  | .hbm, ⟨17, _⟩ => ⟨S4x12x2048x1, .f32⟩
  | .hbm, ⟨18, _⟩ => ⟨S4x12x2048x2048, .f32⟩
  | .hbm, ⟨19, _⟩ => ⟨S4x12x2048x2048, .f32⟩
  | .hbm, ⟨20, _⟩ => ⟨S4x12x2048x2048, .f32⟩
  | .hbm, ⟨21, _⟩ => ⟨S_, .f32⟩
  | .hbm, ⟨22, _⟩ => ⟨S4x12x2048, .f32⟩
  | .hbm, ⟨23, _⟩ => ⟨S4x12x2048x1, .f32⟩
  | .hbm, ⟨24, _⟩ => ⟨S4x12x2048x2048, .f32⟩
  | .hbm, ⟨25, _⟩ => ⟨S4x12x2048x2048, .f32⟩
  | .hbm, ⟨26, _⟩ => ⟨S4x12x2048x64, .f32⟩
  | _, _ => ⟨S4x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S12x1x1 : S_.BroadcastsInDim S12x1x1 (![] : Fin 0 → Fin S12x1x1.rank)
  bcast_S12x1x1_S1x12x1x1_1_2_3 : S12x1x1.BroadcastsInDim S1x12x1x1 (![1, 2, 3] : Fin 3 → Fin S1x12x1x1.rank)
  bcast_S1x12x1x1_S4x12x2048x2048_0_1_2_3 : S1x12x1x1.BroadcastsInDim S4x12x2048x2048 (![0, 1, 2, 3] : Fin 4 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]

variable [Facts₀]

def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf

class Facts : Prop extends Facts₀ where

variable [Facts]
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«163426_j91173565760008_2_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibUnitCast.lean ====
/-
  Reshapes that only add or drop two leading unit axes, read at an entry.

  A `1 × 1 × M × N` array and an `M × N` array have the same row-major order: entry `(0, 0, p, q)` of the first sits at
  position `p · N + q`, which is the position of entry `(p, q)` of the second. So a shape cast between the two shapes reads,
  at an entry, the operand at the entry with the same `(p, q)`.
-/
import Idealize.ShloMosaic.Lib.ValueIdx
import Idealize.ShloMosaic.Lib.Pipeline.Value

noncomputable section

namespace Cert.Lib.UnitCast

open Idealize.ShloMosaic Idealize.ShloMosaic.ValueIdx

variable {α : Type} {M N : Nat}

/-- The two entries sit at the same row-major position. -/
theorem rowMajor_unit (p : Fin M) (q : Fin N) :
    ((⟨4, ![1, 1, M, N]⟩ : Shape).rowMajor (ix4 (0 : Fin 1) (0 : Fin 1) p q)).val
      = ((⟨2, ![M, N]⟩ : Shape).rowMajor (ix2 p q)).val := by
  rw [Shape.rowMajor_val_four, Shape.rowMajor_val_two]
  show ((0 * 1 + 0) * M + p.val) * N + q.val = p.val * N + q.val
  simp

/-- Dropping the two unit axes: entry `(p, q)` of the result is entry `(0, 0, p, q)` of the operand. -/
theorem dropUnits_apply (x : (⟨4, ![1, 1, M, N]⟩ : Shape).Idx → α) (h : (⟨4, ![1, 1, M, N]⟩ : Shape).ShapeCasts ⟨2, ![M, N]⟩)
    (p : Fin M) (q : Fin N) :
    shapeCast ⟨2, ![M, N]⟩ x h (ix2 p q) = x (ix4 (0 : Fin 1) (0 : Fin 1) p q) :=
  shapeCast_apply x h (ix2 p q) (ix4 (0 : Fin 1) (0 : Fin 1) p q) (rowMajor_unit p q)

/-- Adding the two unit axes: entry `(0, 0, p, q)` of the result is entry `(p, q)` of the operand. -/
theorem addUnits_apply (x : (⟨2, ![M, N]⟩ : Shape).Idx → α) (h : (⟨2, ![M, N]⟩ : Shape).ShapeCasts ⟨4, ![1, 1, M, N]⟩)
    (p : Fin M) (q : Fin N) :
    shapeCast ⟨4, ![1, 1, M, N]⟩ x h (ix4 (0 : Fin 1) (0 : Fin 1) p q) = x (ix2 p q) :=
  shapeCast_apply x h (ix4 (0 : Fin 1) (0 : Fin 1) p q) (ix2 p q) (rowMajor_unit p q).symm

end Cert.Lib.UnitCast

end
-- ==== Proof.LibRealOps.lean ====
/-
  The reals are closed under the ideal operations a normalisation uses.

  At the ideal instance a float is an extended real, and most laws that join two spellings of one formula (a variance,
  a product moved across a sum) hold only where every value is a REAL. These lemmas carry "is a real" through the
  operations, one value at a time, each naming the real the result is:
  * `rsqrt_coe_of_pos`: the reciprocal square root of a real `r > 0` is the real `(√r)⁻¹`, which is positive
    (`inv_sqrt_pos`); `rsqrt_add_eps`: so is that of `v + ε` for `v ≥ 0`, `ε > 0` (a variance plus its epsilon);
  * `coe_max`: the maximum of two reals; `dot_coe`: the inner product of two real rows; `sum_ones`: a sum of ones
    over a finite set is the number of its elements (a node's degree, counted by scattering ones);
  * `cmp_ogt_eq_one_iff`: the comparison `x > y` is the flag 1 exactly when `y < x`;
  * `gcn_coeff_coe`: the symmetric-normalisation coefficient `where(d > 0, rsqrt(max(d, 1)), 0)` of a real degree
    `d` is a real, and `gcn_coeff_nonneg`: it is non-negative — what lets it move across a neighbourhood sum.
-/
import Idealize.ShloMosaic.PureOps.Ideal
import Mathlib.Algebra.BigOperators.Fin
import Mathlib.Tactic.Linarith

noncomputable section

namespace ProofLib.RealOps

open Idealize.ShloMosaic

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- That real is positive. -/
theorem inv_sqrt_pos {r : ℝ} (hr : 0 < r) : 0 < (Real.sqrt r)⁻¹ := inv_pos.mpr (Real.sqrt_pos.mpr hr)

/-- The reciprocal square root of `v + ε`, `v ≥ 0` and `ε > 0` reals: a variance plus its epsilon. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add, rsqrt_coe_of_pos (add_pos_of_nonneg_of_pos hv he)]

/-- The maximum of two reals, in the extended reals, is their real maximum. -/
theorem coe_max (x y : ℝ) : ((max x y : ℝ) : EReal) = max (x : EReal) (y : EReal) :=
  EReal.coe_strictMono.monotone.map_max

/-- The inner product of two real rows is the real inner product. -/
theorem dot_coe (s : Finset ι) (a b : ι → ℝ) :
    ∑ k ∈ s, (a k : EReal) * (b k : EReal) = ((∑ k ∈ s, a k * b k : ℝ) : EReal) := by
  rw [coe_sum]; exact Finset.sum_congr rfl fun k _ => (EReal.coe_mul _ _).symm

/-- A sum of ones over a finite set is the number of its elements. -/
theorem sum_ones (s : Finset ι) : ∑ _i ∈ s, (1 : EReal) = ((s.card : ℝ) : EReal) := by
  have h1 : ∑ _i ∈ s, (1 : EReal) = ∑ _i ∈ s, ((1 : ℝ) : EReal) := by simp
  rw [h1, ← coe_sum]; simp

/-- The comparison `x > y` is the flag 1 exactly when `y < x`. -/
theorem cmp_ogt_eq_one_iff (x y : EReal) : Ideal.cmp .ogt x y = 1#1 ↔ y < x := by
  unfold Ideal.cmp
  by_cases h : y < x <;> simp [h]

/-- The symmetric-normalisation coefficient of a real degree `d`: `(√(max d 1))⁻¹` where `d > 0`, else `0`. -/
def gcnCoeff (d : ℝ) : ℝ := if 0 < d then (Real.sqrt (max d 1))⁻¹ else 0

/-- `where(d > 0, rsqrt(max(d, 1)), 0)` at a real `d` is the real `gcnCoeff d`. -/
theorem gcn_coeff_coe (d : ℝ) :
    Scalar.select (Ideal.cmp .ogt (d : EReal) 0) (Ideal.rsqrt (max (d : EReal) 1)) (0 : EReal) = ((gcnCoeff d : ℝ) : EReal) := by
  have h1 : (1 : EReal) = ((1 : ℝ) : EReal) := EReal.coe_one.symm
  have hpos : (0 : ℝ) < max d 1 := lt_of_lt_of_le one_pos (le_max_right d 1)
  unfold Scalar.select gcnCoeff
  by_cases hd : 0 < d
  · have hc : Ideal.cmp .ogt (d : EReal) 0 = (1 : BitVec 1) := (cmp_ogt_eq_one_iff _ _).mpr (by exact_mod_cast hd)
    rw [if_pos hc, if_pos hd, h1, ← coe_max, rsqrt_coe_of_pos hpos]
  · have hc : ¬ Ideal.cmp .ogt (d : EReal) 0 = (1 : BitVec 1) := fun e => hd (by exact_mod_cast (cmp_ogt_eq_one_iff _ _).mp e)
    rw [if_neg hc, if_neg hd, EReal.coe_zero]

/-- The coefficient is non-negative. -/
theorem gcn_coeff_nonneg (d : ℝ) : 0 ≤ gcnCoeff d := by
  unfold gcnCoeff
  split
  · exact inv_nonneg.mpr (Real.sqrt_nonneg _)
  · exact le_rfl

end ProofLib.RealOps

end
-- ==== Proof.AttnRow.lean ====
/-
  One query row of softmax attention, in the two spellings the two programs use, and the law that joins them.

  Fix a query row `q : κ → EReal`, a temperature `c`, key rows `keys m : κ → EReal` and, for one output column, the
  values `vals m`, `m` ranging over the finite set `ι` of key positions.
  * The SCORES of the row are `c · ⟨q, keys m⟩`. One spelling scales the query first, `∑ k, (q k · c) · keys m k`
    (`scoresFolded`), the other scales the inner product, `(∑ k, q k · keys m k) · c` (`scoresScaled`).
  * The WEIGHTS are `w m = exp (s m − max_m s m)`, the maximum taken from −∞ (`rowMax`, `weight`).
  * The OUTPUT is `∑ m, w m · vals m` divided by `∑ m, w m`. One spelling multiplies the unnormalised sum by the reciprocal
    `1 / ∑ w` (`normalisedAfter`); the other divides every weight by `0 + ∑ w` first and then sums (`normalisedBefore`),
    and takes its maximum once more against −∞.
  On the extended reals neither step is an identity in general (a factor does not move across a sum of infinities of
  both signs). Where every input is a REAL they are: the scores are reals, their maximum over a non-empty `ι` is a real,
  so every weight is a positive real, the denominator is a positive real, and both outputs are the real
  `(∑ m, w m · vals m) / ∑ m, w m` (`attention_row_eq`).
-/
import Idealize.ShloMosaic.PureOps.Ideal.Laws
import Idealize.ShloMosaic.Lib.IdealHost
import Mathlib.Data.Finset.Fold
import proofs.«163426_j91173565760008_2_alg».proof.Proof.LibRealOps

noncomputable section

open scoped BigOperators

namespace Cert.Attn

open Idealize.ShloMosaic ProofLib

variable {ι κ : Type} [Fintype ι] [Fintype κ]

/-- The word of −∞ denotes the bottom of the extended reals. -/
theorem ofBits_negInf_f32 : Ideal.ofBits .f32 0xFF800000#32 = ⊥ := by simp [Ideal.ofBits, Ideal.ieee]

/-- Scores with the temperature folded into the query row. -/
def scoresFolded (q : κ → EReal) (c : EReal) (keys : ι → κ → EReal) (m : ι) : EReal := ∑ k, (q k * c) * keys m k

/-- Scores with the temperature applied to the inner product. -/
def scoresScaled (q : κ → EReal) (c : EReal) (keys : ι → κ → EReal) (m : ι) : EReal := (∑ k, q k * keys m k) * c

/-- A row's maximum, folded from −∞. -/
def rowMax (s : ι → EReal) : EReal := (Finset.univ : Finset ι).fold max (Ideal.ofBits .f32 0xFF800000#32) s

/-- The unnormalised softmax weight of position `m`. -/
def weight (s : ι → EReal) (m : ι) : EReal := Ideal.exp (s m - rowMax s)

/-- The weighted sum of the values, normalised AFTER the sum by the reciprocal of the weights' total. -/
def normalisedAfter (s vals : ι → EReal) : EReal :=
  (∑ m, weight s m * vals m) * Ideal.div (Ideal.ofBits .f32 0x3F800000#32) (∑ m, weight s m)

/-- The weighted sum of the values with every weight normalised BEFORE the sum; the maximum is taken once more against −∞
    and the total starts from the zero word. -/
def normalisedBefore (s vals : ι → EReal) : EReal :=
  ∑ m, Ideal.div (Ideal.exp (s m - max (Ideal.ofBits .f32 0xFF800000#32) (rowMax s)))
      (Ideal.ofBits .f32 0x00000000#32 + ∑ m', Ideal.exp (s m' - max (Ideal.ofBits .f32 0xFF800000#32) (rowMax s))) * vals m

/-- With real inputs the folded scores are the real `∑ k, q k · c · keys m k`. -/
theorem scoresFolded_coe (q : κ → ℝ) (c : ℝ) (keys : ι → κ → ℝ) (m : ι) :
    scoresFolded (fun k => (q k : EReal)) (c : EReal) (fun m k => (keys m k : EReal)) m
      = (((∑ k, q k * keys m k) * c : ℝ) : EReal) := by
  unfold scoresFolded
  rw [Finset.sum_mul, RealOps.coe_sum]
  refine Finset.sum_congr rfl fun k _ => ?_
  rw [← EReal.coe_mul, ← EReal.coe_mul]
  exact congrArg _ (by ring)

/-- With real inputs the scaled scores are the same real. -/
theorem scoresScaled_coe (q : κ → ℝ) (c : ℝ) (keys : ι → κ → ℝ) (m : ι) :
    scoresScaled (fun k => (q k : EReal)) (c : EReal) (fun m k => (keys m k : EReal)) m
      = (((∑ k, q k * keys m k) * c : ℝ) : EReal) := by
  unfold scoresScaled
  rw [RealOps.dot_coe, ← EReal.coe_mul]

/-- The maximum, from −∞, of a non-empty finite family of reals is a real. -/
theorem rowMax_real [Nonempty ι] (S : ι → ℝ) : ∃ r : ℝ, rowMax (fun m => (S m : EReal)) = (r : EReal) := by
  classical
  have key : ∀ T : Finset ι, T.fold max (⊥ : EReal) (fun m => (S m : EReal)) = ⊥
      ∨ ∃ r : ℝ, T.fold max (⊥ : EReal) (fun m => (S m : EReal)) = (r : EReal) := by
    intro T
    refine Finset.induction_on T (Or.inl Finset.fold_empty) ?_
    intro a T ha ih
    rw [Finset.fold_insert ha]
    rcases ih with h | ⟨r, h⟩
    · exact Or.inr ⟨S a, by rw [h]; exact max_bot_right _⟩
    · exact Or.inr ⟨max (S a) r, by rw [h, RealOps.coe_max]⟩
  unfold rowMax
  rw [ofBits_negInf_f32]
  rcases key Finset.univ with h | h
  · exfalso
    obtain ⟨a⟩ := ‹Nonempty ι›
    have hle : (S a : EReal) ≤ (Finset.univ : Finset ι).fold max (⊥ : EReal) (fun m => (S m : EReal)) :=
      (Finset.le_fold_max _).mpr (Or.inr ⟨a, Finset.mem_univ a, le_rfl⟩)
    rw [h] at hle
    exact EReal.coe_ne_bot _ (le_bot_iff.mp hle)
  · exact h

/-- THE LAW: on real scores and real values, normalising after the sum and normalising before it agree. -/
theorem normalised_eq [Nonempty ι] (S v : ι → ℝ) :
    normalisedAfter (fun m => (S m : EReal)) (fun m => (v m : EReal))
      = normalisedBefore (fun m => (S m : EReal)) (fun m => (v m : EReal)) := by
  obtain ⟨r, hr⟩ := rowMax_real S
  have hw : ∀ m, Ideal.exp ((S m : EReal) - (r : EReal)) = ((Real.exp (S m - r) : ℝ) : EReal) := fun m => by
    rw [← EReal.coe_sub, Ideal.exp_coe]
  have hl : (0 : ℝ) < ∑ m, Real.exp (S m - r) := Finset.sum_pos (fun m _ => Real.exp_pos _) Finset.univ_nonempty
  unfold normalisedAfter normalisedBefore weight
  rw [hr, ofBits_negInf_f32, max_eq_right bot_le, Ideal.ofBits_one_f32, Ideal.ofBits_zero_f32, zero_add]
  simp only [hw]
  rw [← RealOps.coe_sum]
  simp only [Ideal.div_coe hl.ne']
  rw [RealOps.dot_coe, one_mul, ← EReal.coe_mul, Finset.sum_mul, RealOps.coe_sum]
  refine Finset.sum_congr rfl fun m _ => ?_
  rw [← EReal.coe_mul, ← EReal.coe_mul]
  exact congrArg _ (by ring)

/-- One query row of attention: with real query, keys, values and temperature, the two programs' spellings give the
    same extended real. -/
theorem attention_row_eq [Nonempty ι] (q : κ → ℝ) (c : ℝ) (keys : ι → κ → ℝ) (v : ι → ℝ) :
    normalisedAfter (scoresFolded (fun k => (q k : EReal)) (c : EReal) (fun m k => (keys m k : EReal))) (fun m => (v m : EReal))
      = normalisedBefore (scoresScaled (fun k => (q k : EReal)) (c : EReal) (fun m k => (keys m k : EReal))) (fun m => (v m : EReal)) := by
  have e1 : scoresFolded (fun k => (q k : EReal)) (c : EReal) (fun m k => (keys m k : EReal))
      = fun m => (((∑ k, q k * keys m k) * c : ℝ) : EReal) := funext fun m => scoresFolded_coe q c keys m
  have e2 : scoresScaled (fun k => (q k : EReal)) (c : EReal) (fun m k => (keys m k : EReal))
      = fun m => (((∑ k, q k * keys m k) * c : ℝ) : EReal) := funext fun m => scoresScaled_coe q c keys m
  rw [e1, e2]
  exact normalised_eq _ v

/-- A head's temperature: the exponential of its learned log-scale, clamped above by the word `0x40935DCC` (4.6052). -/
def temperature (ls : EReal) : EReal := Ideal.exp (min ls (Ideal.ofBits .f32 0x40935DCC#32))

/-- The exponential of anything but +∞ is a real (`exp (−∞) = 0`). -/
theorem exp_real_of_ne_top (y : EReal) (hy : y ≠ ⊤) : ∃ c : ℝ, Ideal.exp y = (c : EReal) := by
  induction y using EReal.rec with
  | bot => exact ⟨0, by rw [Ideal.exp_bot, EReal.coe_zero]⟩
  | coe r => exact ⟨Real.exp r, Ideal.exp_coe r⟩
  | top => exact absurd rfl hy

/-- The temperature of a real log-scale is a real: the clamp is at most the log-scale, hence below +∞. -/
theorem temperature_real (r : ℝ) : ∃ c : ℝ, temperature (r : EReal) = (c : EReal) :=
  exp_real_of_ne_top _ (ne_top_of_le_ne_top (EReal.coe_ne_top r) (min_le_left _ _))

end Cert.Attn

end
-- ==== Proof.KernelEntry.lean ====
/-
  The kernel body's result, read at one entry.

  The body receives one block of 1024 query rows `Q` (`1 × 1 × 1024 × 64`), the head's 2048 key rows `K` and value rows `V`
  (`1 × 1 × 2048 × 64` each) and the head's temperature `c` (`1 × 1 × 1`), and stores a `1 × 1 × 1024 × 64` block. Entry
  `(0, 0, r, d)` of what it stores depends on query row `r` only:
    * the scores `s m = ∑ k, (Q r k · c) · K m k` of row `r` against every key row `m` — the temperature is folded into the
      query row before the product;
    * the weights `w m = exp (s m − max_m s m)`, the maximum a lane reduction from −∞;
    * the weighted sum `∑ m, w m · V m d` (the weights pass through a change of float format, which is the identity on
      extended reals), multiplied by the reciprocal `1 / ∑ m, w m`.
  That is `Attn.normalisedAfter (Attn.scoresFolded (Q r) c K) (V · d)`.
-/
import proofs.«163426_j91173565760008_2_alg».proof.Proof.Gen.KernelIdeal.Skeleton
import proofs.«163426_j91173565760008_2_alg».proof.Proof.LibBlockOps
import proofs.«163426_j91173565760008_2_alg».proof.Proof.LibPlainDot
import proofs.«163426_j91173565760008_2_alg».proof.Proof.LibColumn
import proofs.«163426_j91173565760008_2_alg».proof.Proof.LibUnitCast
import proofs.«163426_j91173565760008_2_alg».proof.Proof.AttnRow

noncomputable section

open scoped BigOperators

namespace Cert.KernelIdeal.Entry

open Cert.KernelIdeal Cert.KernelIdeal.Gen Idealize.ShloMosaic Idealize.ShloMosaic.ValueIdx Cert.Lib Cert.Attn

/-- The score product: entry `(p, q)` is the inner product of row `p` of the left block with row `q` of the right. -/
theorem scoreProduct_apply (l : FVec Ideal S1024x64 .f32) (rr : FVec Ideal S2048x64 .f32) (p : Fin 1024) (q : Fin 2048) :
    matmul dot_S1024x64_S2048x64_S1024x2048_1_1_0_0_n_n none l rr (constant S1024x2048 .f32 0x00000000#32) (ix2 p q)
      = ∑ k : Fin 64, l (ix2 p k) * rr (ix2 q k) :=
  BlockOps.matmul_rows_apply dot_S1024x64_S2048x64_S1024x2048_1_1_0_0_n_n_wf none l rr p q

/-- The value product: entry `(p, q)` is row `p` of the weights against column `q` of the values. -/
theorem valueProduct_apply (l : FVec Ideal S1024x2048 .bf16) (rr : FVec Ideal S2048x64 .bf16) (p : Fin 1024) (q : Fin 64) :
    matmul dot_S1024x2048_S2048x64_S1024x64_1_0_0_1_n_n none l rr (constant S1024x64 .f32 0x00000000#32) (ix2 p q)
      = ∑ k : Fin 2048, l (ix2 p k) * rr (ix2 k q) :=
  PlainDot.matmul_zero_apply none l rr p q

/-- The temperature is the one entry of its `1 × 1 × 1` block. -/
theorem temperature_apply (v0 : Vec Ideal S1x1x1 .f32) :
    extractAt ![0, 0, 0] v0 inpos_S1x1x1_p0_0_0 = v0 (ix3 (0 : Fin 1) (0 : Fin 1) (0 : Fin 1)) :=
  congrArg v0 (funext fun a => Fin.ext (by
    match a with | ⟨0, _⟩ => rfl | ⟨1, _⟩ => rfl | ⟨2, _⟩ => rfl))

/-- The weights' block at `(r, k)`, from a block `Sc` of scores: `exp (Sc r k − max_m Sc r m)`, the maximum a lane reduction of row
    `r` from −∞, set up as a column and repeated along the lanes. -/
theorem weights_apply (Sc : FVec Ideal S1024x2048 .f32) (hφ : FKind.Formats .f32)
    (hacc : (0xFF800000#32 : BitVec 32) = FKind.maximumf.neutral .f32 hφ) (r : Fin 1024) (k : Fin 2048) :
    exp (subf Sc (broadcastTo S1024x2048 (shapeCast S1024x1
        (multiReduction .maximumf [1] S1024 Sc 0xFF800000#32 reduces_S1024x2048_S1024 hφ hacc) shapeCasts_S1024_S1024x1)
        broadcasts_S1024x1_S1024x2048)) (ix2 r k)
      = weight (fun m : Fin 2048 => Sc (ix2 r m)) k := by
  show Ideal.exp (subf Sc _ (ix2 r k)) = _
  rw [subf_apply, BlockOps.colSpread_apply, BlockOps.rowMax_apply]
  rfl

/-- The output block at `(r, d)`, from a block `Sc` of scores and the value rows `Vb`: the weights of row `r` against column `d`
    of the values, times the reciprocal of the weights' total. -/
theorem normalise_apply (Sc : FVec Ideal S1024x2048 .f32) (Vb : FVec Ideal S2048x64 .bf16) (hφ : FKind.Formats .f32)
    (hmax : (0xFF800000#32 : BitVec 32) = FKind.maximumf.neutral .f32 hφ)
    (hadd : (0x00000000#32 : BitVec 32) = FKind.add.neutral .f32 hφ) (r : Fin 1024) (d : Fin 64) :
    mulf
        (matmul dot_S1024x2048_S2048x64_S1024x64_1_0_0_1_n_n none
          (truncf .bf16 (exp (subf Sc (broadcastTo S1024x2048 (shapeCast S1024x1
            (multiReduction .maximumf [1] S1024 Sc 0xFF800000#32 reduces_S1024x2048_S1024 hφ hmax) shapeCasts_S1024_S1024x1)
            broadcasts_S1024x1_S1024x2048))) bitsLt_bf16_f32)
          Vb (constant S1024x64 .f32 0x00000000#32))
        (broadcastTo S1024x64
          (divf (broadcast S1024x1 (FloatOps.ofBits .f32 0x3F800000#32))
            (shapeCast S1024x1
              (multiReduction .add [1] S1024 (exp (subf Sc (broadcastTo S1024x2048 (shapeCast S1024x1
                (multiReduction .maximumf [1] S1024 Sc 0xFF800000#32 reduces_S1024x2048_S1024 hφ hmax) shapeCasts_S1024_S1024x1)
                broadcasts_S1024x1_S1024x2048))) 0x00000000#32 reduces_S1024x2048_S1024 hφ hadd)
              shapeCasts_S1024_S1024x1))
          broadcasts_S1024x1_S1024x64) (ix2 r d)
      = normalisedAfter (fun m : Fin 2048 => Sc (ix2 r m)) (fun m : Fin 2048 => Vb (ix2 m d)) := by
  rw [mulf_apply, Column.colBroadcast_apply, divf_apply, broadcast_apply, Column.col_apply, BlockOps.rowSum_apply,
    valueProduct_apply]
  simp only [truncf_apply]
  unfold normalisedAfter
  refine congrArg₂ (fun a b : EReal => a * Ideal.div (Ideal.ofBits .f32 0x3F800000#32) b)
    (Finset.sum_congr rfl fun k _ => ?_) (Finset.sum_congr rfl fun k _ => ?_)
  · exact congrArg (· * Vb (ix2 k d)) (weights_apply Sc hφ hmax r k)
  · exact weights_apply Sc hφ hmax r k

/-- THE BODY'S RESULT AT AN ENTRY: query row `r`'s attention output in column `d`. -/
theorem payload_apply (v0 : Vec Ideal S1x1x1 .f32) (v2 : Vec Ideal S1x1x1024x64 .f32) (v6 : Vec Ideal S1x1x2048x64 .f32)
    (v8 : Vec Ideal S1x1x2048x64 .bf16) (r : Fin 1024) (d : Fin 64) :
    k0_pay1 v0 v2 v6 v8 (ix4 (0 : Fin 1) (0 : Fin 1) r d)
      = normalisedAfter
          (scoresFolded (fun k : Fin 64 => v2 (ix4 (0 : Fin 1) (0 : Fin 1) r k)) (v0 (ix3 (0 : Fin 1) (0 : Fin 1) (0 : Fin 1)))
            (fun (m : Fin 2048) (k : Fin 64) => v6 (ix4 (0 : Fin 1) (0 : Fin 1) m k)))
          (fun m : Fin 2048 => v8 (ix4 (0 : Fin 1) (0 : Fin 1) m d)) := by
  unfold k0_pay1
  dsimp only
  rw [UnitCast.addUnits_apply]
  refine (normalise_apply _ _ _ _ _ r d).trans ?_
  refine congrArg₂ normalisedAfter (funext fun m => ?_) (funext fun m => ?_)
  · rw [scoreProduct_apply]
    unfold scoresFolded
    refine Finset.sum_congr rfl fun k _ => ?_
    rw [mulf_apply, broadcast_apply, UnitCast.dropUnits_apply, UnitCast.dropUnits_apply, temperature_apply]
  · exact UnitCast.dropUnits_apply v8 _ m d

end Cert.KernelIdeal.Entry

end
-- ==== Proof.KernelArray.lean ====
/-
  The kernel's output array as ONE function of the arrays the region reads.

  The grid has a point for every batch `b`, head `h` and half `j` of the 2048 query positions. At that point the body sees
  query rows `j·1024 … j·1024 + 1023` of `(b, h)`, all 2048 key rows and value rows of `(b, h)`, and head `h`'s temperature,
  and writes back rows `j·1024 …` of `(b, h)` of the output. So the block a point writes is the restriction, to that block,
  of one function of the whole arrays (`attention`): entry `(b, h, n, d)` is query row `(b, h, n)`'s attention output in
  column `d`, whatever block `n` falls in. The 96 blocks tile the output array, so the array ends holding `attention`.

  Two of the arrays the region reads are written by host operations before it: the values in the narrower float format
  (a change of format: the same extended reals) and the temperatures `exp (min (log-scale, 4.6052))`.
-/
import proofs.«163426_j91173565760008_2_alg».proof.Proof.Gen.KernelIdeal.Value
import proofs.«163426_j91173565760008_2_alg».proof.Proof.KernelEntry
import Idealize.ShloMosaic.Lib.StableHlo.Run
import Idealize.ShloMosaic.Lib.IdealHost

set_option maxRecDepth 16384

noncomputable section

open scoped BigOperators

namespace Cert.KernelIdeal.Whole

open Cert.KernelIdeal Cert.KernelIdeal.Gen Idealize.ShloMosaic Idealize.ShloMosaic.TcCoe Idealize.ShloMosaic.ValueIdx
  Idealize.SL.Sem Cert.Attn
open Idealize.ShloMosaic.Pipeline (Dat)

variable (m : (ℓ : Loc nD τ sig) → Buf (Elt Ideal) ℓ) (ρ : Dev nD → PrngReg)

/-- Attention with the temperature folded into the query, over whole arrays: `q`, `k`, `v` the queries, keys and values,
    `sc` the temperature of each head. -/
def attention (q k v : S4x12x2048x64.Idx → EReal) (sc : S12x1x1.Idx → EReal) : S4x12x2048x64.Idx → EReal := fun i =>
  normalisedAfter
    (scoresFolded (fun kk : Fin 64 => q (ix4 (i 0 : Fin 4) (i 1 : Fin 12) (i 2 : Fin 2048) kk))
      (sc (ix3 (i 1 : Fin 12) (0 : Fin 1) (0 : Fin 1)))
      (fun (mm : Fin 2048) (kk : Fin 64) => k (ix4 (i 0 : Fin 4) (i 1 : Fin 12) mm kk)))
    (fun mm : Fin 2048 => v (ix4 (i 0 : Fin 4) (i 1 : Fin 12) mm (i 3 : Fin 64)))

/-- The body's result at any index `y` of its block: the two leading coordinates of `y` are 0. -/
theorem block_apply (x0 : Vec Ideal S1x1x1024x64 .f32) (x1 : Vec Ideal S1x1x2048x64 .f32) (x2 : Vec Ideal S1x1x2048x64 .bf16)
    (x3 : Vec Ideal S1x1x1 .f32) (y : S1x1x1024x64.Idx) :
    k0_pay1 x3 x0 x1 x2 y
      = normalisedAfter
          (scoresFolded (fun kk : Fin 64 => x0 (ix4 (0 : Fin 1) (0 : Fin 1) (y 2 : Fin 1024) kk))
            (x3 (ix3 (0 : Fin 1) (0 : Fin 1) (0 : Fin 1)))
            (fun (mm : Fin 2048) (kk : Fin 64) => x1 (ix4 (0 : Fin 1) (0 : Fin 1) mm kk)))
          (fun mm : Fin 2048 => x2 (ix4 (0 : Fin 1) (0 : Fin 1) mm (y 3 : Fin 64))) := by
  have hy : y = ix4 (0 : Fin 1) (0 : Fin 1) (y 2 : Fin 1024) (y 3 : Fin 64) := funext fun a => by
    match a with
    | ⟨0, _⟩ => exact Subsingleton.elim (α := Fin 1) _ _
    | ⟨1, _⟩ => exact Subsingleton.elim (α := Fin 1) _ _
    | ⟨2, _⟩ => rfl
    | ⟨3, _⟩ => rfl
  exact (congrArg (k0_pay1 x3 x0 x1 x2) hy).trans (Entry.payload_apply x3 x0 x1 x2 (y 2) (y 3))

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps, decided over the 96 grid points: the query window moves with the output window; the key and
    value windows follow its batch and head and stay at row 0; the temperature window follows its head. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = win0_4.index t (2 : Fin 4) ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_3.index t (0 : Fin 3) = win0_4.index t (1 : Fin 4) ∧ win0_3.index t (1 : Fin 3) = 0 ∧ win0_3.index t (2 : Fin 3) = 0
    ∧ win0_4.index t (3 : Fin 4) = 0 :=
  (by decide +kernel : ∀ t : Fin grid0.N, _)

/-- Every (batch, head, half) is some point's output block. -/
theorem idx_onto : ∀ (q0 : Fin 4) (q1 : Fin 12) (q2 : Fin 2), ∃ t : Fin cfg0.N, win0_4.index t = ![q0.val, q1.val, q2.val, 0] :=
  (by decide +kernel : ∀ (q0 : Fin 4) (q1 : Fin 12) (q2 : Fin 2), ∃ t : Fin grid0.N, win0_4.index t = ![q0.val, q1.val, q2.val, 0])

/-- WHAT POINT `t` WRITES BACK is block `t` of `attention` of the arrays as the region finds them. -/
theorem flushed_eq (c : Dev nD) (t : Fin cfg0.N) :
    (dats m 0 c).flushed 4 t = ((cfg0.win 4).blk t).view.read (Elt Ideal)
      (attention (V m c main_arg0) (V m c main_arg1) (V m c main_v3) (V m c main_v2)) := by
  rw [Value.flushed4]
  unfold out0_4
  rw [View.canon_unit_zero hz4]
  simp only [View.ld_unit_zero (S := S1x1x1024x64) hz4, View.ld_unit_zero (S := S1x1x2048x64) hz4, View.ld_unit_zero (S := S1x1x1) hz3]
  obtain ⟨a0, a1, a2, a3, b0, b1, b2, b3, c0, c1, c2, c3, d0, d1, d2, e3⟩ := idx_facts t
  funext j
  show k0_pay1 (iblk m c 3 t) (iblk m c 0 t) (iblk m c 1 t) (iblk m c 2 t) j
      = attention (V m c main_arg0) (V m c main_arg1) (V m c main_v3) (V m c main_v2) (((cfg0.win 4).blk t).view.emb j)
  refine (block_apply (iblk m c 0 t) (iblk m c 1 t) (iblk m c 2 t) (iblk m c 3 t) j).trans ?_
  have hj0 : (j 0).val < 1 := (j 0).isLt
  have hj1 : (j 1).val < 1 := (j 1).isLt
  have hj2 : (j 2).val < 1024 := (j 2).isLt
  have hj3 : (j 3).val < 64 := (j 3).isLt
  unfold attention
  refine congrArg₂ normalisedAfter (funext fun mm => ?_) (funext fun mm => ?_)
  · unfold scoresFolded
    refine Finset.sum_congr rfl fun kk _ => ?_
    refine congrArg₂ (· * ·) (congrArg₂ (· * ·) ?_ ?_) ?_
    · -- the query row: block row `j 2` of the point's query block is row `index · 1024 + j 2` of the array
      show V m c main_arg0 (((cfg0.win 0).blk t).view.emb (ix4 (0 : Fin 1) (0 : Fin 1) (j 2) kk)) = _
      refine congrArg (V m c main_arg0) (funext fun a => Fin.ext ?_)
      match a with
      | ⟨0, _⟩ => show win0_0.index t (0 : Fin 4) * 1 + 1 * 0 = win0_4.index t (0 : Fin 4) * 1 + 1 * (j 0).val; omega
      | ⟨1, _⟩ => show win0_0.index t (1 : Fin 4) * 1 + 1 * 0 = win0_4.index t (1 : Fin 4) * 1 + 1 * (j 1).val; omega
      | ⟨2, _⟩ => show win0_0.index t (2 : Fin 4) * 1024 + 1 * (j 2).val = win0_4.index t (2 : Fin 4) * 1024 + 1 * (j 2).val; omega
      | ⟨3, _⟩ => show win0_0.index t (3 : Fin 4) * 64 + 1 * kk.val = kk.val; omega
    · -- the temperature: the one entry of the point's block is the head's
      show V m c main_v2 (((cfg0.win 3).blk t).view.emb (ix3 (0 : Fin 1) (0 : Fin 1) (0 : Fin 1))) = _
      refine congrArg (V m c main_v2) (funext fun a => Fin.ext ?_)
      match a with
      | ⟨0, _⟩ => show win0_3.index t (0 : Fin 3) * 1 + 1 * 0 = win0_4.index t (1 : Fin 4) * 1 + 1 * (j 1).val; omega
      | ⟨1, _⟩ => show win0_3.index t (1 : Fin 3) * 1 + 1 * 0 = 0; omega
      | ⟨2, _⟩ => show win0_3.index t (2 : Fin 3) * 1 + 1 * 0 = 0; omega
    · -- a key row: the point's key block is all 2048 rows of its batch and head
      show V m c main_arg1 (((cfg0.win 1).blk t).view.emb (ix4 (0 : Fin 1) (0 : Fin 1) mm kk)) = _
      refine congrArg (V m c main_arg1) (funext fun a => Fin.ext ?_)
      match a with
      | ⟨0, _⟩ => show win0_1.index t (0 : Fin 4) * 1 + 1 * 0 = win0_4.index t (0 : Fin 4) * 1 + 1 * (j 0).val; omega
      | ⟨1, _⟩ => show win0_1.index t (1 : Fin 4) * 1 + 1 * 0 = win0_4.index t (1 : Fin 4) * 1 + 1 * (j 1).val; omega
      | ⟨2, _⟩ => show win0_1.index t (2 : Fin 4) * 2048 + 1 * mm.val = mm.val; omega
      | ⟨3, _⟩ => show win0_1.index t (3 : Fin 4) * 64 + 1 * kk.val = kk.val; omega
  · -- a value: likewise, column `j 3` of the block is column `j 3` of the array
    show V m c main_v3 (((cfg0.win 2).blk t).view.emb (ix4 (0 : Fin 1) (0 : Fin 1) mm (j 3))) = _
    refine congrArg (V m c main_v3) (funext fun a => Fin.ext ?_)
    match a with
    | ⟨0, _⟩ => show win0_2.index t (0 : Fin 4) * 1 + 1 * 0 = win0_4.index t (0 : Fin 4) * 1 + 1 * (j 0).val; omega
    | ⟨1, _⟩ => show win0_2.index t (1 : Fin 4) * 1 + 1 * 0 = win0_4.index t (1 : Fin 4) * 1 + 1 * (j 1).val; omega
    | ⟨2, _⟩ => show win0_2.index t (2 : Fin 4) * 2048 + 1 * mm.val = mm.val; omega
    | ⟨3, _⟩ => show win0_2.index t (3 : Fin 4) * 64 + 1 * (j 3).val = win0_4.index t (3 : Fin 4) * 64 + 1 * (j 3).val; omega

/-- An index of the output array is in point `t`'s block iff each coordinate is in the block's range on its axis. -/
theorem mem_blk (t : Fin cfg0.N) (i : S4x12x2048x64.Idx) :
    i ∈ ((cfg0.win 4).blk t).view.set ↔ ∀ a : Fin 4, win0_4.index t a * S1x1x1024x64.size a ≤ (i a).val
      ∧ (i a).val < win0_4.index t a * S1x1x1024x64.size a + S1x1x1024x64.size a := by
  show i ∈ ((View.whole main_v4).slice (win0_4.rect t)).set ↔ _
  rw [View.set_slice_whole, Rect.mem_set_unit]
  exact Iff.rfl

/-- THE COVER: every index of the output array is in some point's block — the point of its batch, its head and the half its
    query position falls in. -/
theorem cover (i : S4x12x2048x64.Idx) :
    ∃ t : Fin cfg0.N, (cfg0.win 4).flush t = true ∧ i ∈ ((cfg0.win 4).blk t).view.set := by
  have hi0 : (i 0).val < 4 := (i 0).isLt
  have hi1 : (i 1).val < 12 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 1024, by omega⟩
  have q0 : win0_4.index t (0 : Fin 4) = (i 0).val := congrFun ht 0
  have q1 : win0_4.index t (1 : Fin 4) = (i 1).val := congrFun ht 1
  have q2 : win0_4.index t (2 : Fin 4) = (i 2).val / 1024 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-- THE OUTPUT ARRAY after the run: `attention` of the arrays as the region finds them. -/
theorem final (c : Dev nD) :
    (dats m 0 c).arrAt 4 cfg0.N = attention (V m c main_arg0) (V m c main_arg1) (V m c main_v3) (V m c main_v2) :=
  (dats m 0 c).arrAt_eq_of_cover 4 _ (fun t _ => flushed_eq m c t) cover

/-- The values as the region finds them: the host's change of float format of the third argument, the same extended reals. -/
theorem values_eq (c : Dev nD) :
    (V m c main_v3 : S4x12x2048x64.Idx → EReal) = m ((c : Thread nD τ).loc main_arg2) := by
  dsimp only [Gen.V, Gen.hostOps0]
  after_results
  try rfl

/-- The temperatures as the region finds them: `exp (min (log-scale, 4.6052))` of the fourth argument, head by head. -/
theorem temperatures_eq (c : Dev nD) :
    (V m c main_v2 : S12x1x1.Idx → EReal) = fun j => temperature (m ((c : Thread nD τ).loc main_arg3) j) := by
  have e : (V m c main_v2 : S12x1x1.Idx → EReal)
      = Host.exp (minimumf (m ((c : Thread nD τ).loc main_arg3) : FVec Ideal S12x1x1 .f32)
          (broadcastInDim S12x1x1 ![] bcast_S_S12x1x1 (constant (F := Ideal) S_ .f32 0x40935DCC#32))) := by
    dsimp only [Gen.V, Gen.hostOps0]; after_results
  rw [e]
  funext j
  show Ideal.exp (min (m ((c : Thread nD τ).loc main_arg3) j)
    (broadcastInDim S12x1x1 ![] bcast_S_S12x1x1 (constant (F := Ideal) S_ .f32 0x40935DCC#32) j)) = _
  rw [broadcastInDim_scalar_apply]
  rfl

/-- THE RUN, READ: the kernel's program ends with its result array at `attention` of its four arguments (the temperatures
    computed from the fourth), the arguments unchanged. -/
theorem run : θ_run defs (onTc (τ := τ) (main (F := Ideal))) ⟨m, fun _ => 0, ρ⟩ fun r => ∀ c : Dev nD,
      r.2.mem ((c : Thread nD τ).loc main_v4)
        = attention (m ((c : Thread nD τ).loc main_arg0)) (m ((c : Thread nD τ).loc main_arg1)) (m ((c : Thread nD τ).loc main_arg2))
            (fun j => temperature (m ((c : Thread nD τ).loc main_arg3) j))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (by
      rw [final m c, V_main_arg0, V_main_arg1, values_eq, temperatures_eq]
      rfl), (h c).2⟩)
    (Value.run_blocks m ρ)

end Cert.KernelIdeal.Whole

end
-- ==== Proof.RefEntry.lean ====
/-
  The reference's result, read at one entry.

  The reference computes, for batch `b`, head `h`, query position `n` and output column `d`:
    * the scores `s m = (∑ k, q (b,h,n,k) · k (b,h,m,k)) · c h`, the head's temperature `c h` applied to the inner product;
    * the row maximum of the scores from −∞, taken once more against −∞;
    * the weights `exp (s m − max)`, their total from the zero word, each weight divided by the total;
    * `∑ m, (w m / total) · v (b,h,m,d)`.
  That is `Attn.normalisedBefore (Attn.scoresScaled (q row) (c h) (k rows)) (v column)`. Each stage of the reference is
  read at an index by the generated per-operation lemmas; the one stage they do not read, the maximum over the key axis, is
  the fold of `max` over that axis's coordinates.
-/
import proofs.«163426_j91173565760008_2_alg».proof.Proof.Gen.ReferenceIdeal.Read
import proofs.«163426_j91173565760008_2_alg».proof.Proof.AttnRow

noncomputable section

open scoped BigOperators

namespace Cert.ReferenceIdeal.Entry

open Cert.ReferenceIdeal Cert.ReferenceIdeal.Gen Cert.ReferenceIdeal.Read Idealize.ShloMosaic Idealize.ShloMosaic.ValueIdx Cert.Attn

/-- The contents of a `4 × 12 × 2048 × 64` input array, and of the `12 × 1 × 1` array of log-scales. -/
abbrev Arr4 : Type := (⟨S4x12x2048x64, .f32⟩ : BufTy).Contents (Elt Ideal)
abbrev Arr3 : Type := (⟨S12x1x1, .f32⟩ : BufTy).Contents (Elt Ideal)

variable (x0 x1 x2 : Arr4) (x3 : Arr3)

/-- The scores of query `(b, h, n)` against key `m`. -/
def rowScores (b : Fin 4) (h : Fin 12) (n : Fin 2048) : Fin 2048 → EReal :=
  scoresScaled (fun k : Fin 64 => x0 (ix4 b h n k)) (temperature (x3 (ix3 h (0 : Fin 1) (0 : Fin 1))))
    (fun (m : Fin 2048) (k : Fin 64) => x1 (ix4 b h m k))

/-- The scaled product stage at `(b, h, n, m)`. -/
theorem scores_apply (b : Fin 4) (h : Fin 12) (n m : Fin 2048) :
    val_main_v6 (F := Ideal) x0 x1 x3 (ix4 b h n m) = rowScores x0 x1 x3 b h n m := by
  rw [val_main_v6_apply, val_main_v3_apply, val_main_v5_apply, val_main_v4_apply, val_main_v2_apply, val_main_v1_apply,
    val_main_v0_apply, val_main_cst_apply]
  have e1 : ∀ k : Fin 64, lidx_main_v3 (ix4 b h n m) k = ix4 b h n k := fun k => funext fun a => Fin.ext (by
    match a with | ⟨0, _⟩ => rfl | ⟨1, _⟩ => rfl | ⟨2, _⟩ => rfl | ⟨3, _⟩ => rfl)
  have e2 : ∀ k : Fin 64, ridx_main_v3 (ix4 b h n m) k = ix4 b h m k := fun k => funext fun a => Fin.ext (by
    match a with | ⟨0, _⟩ => rfl | ⟨1, _⟩ => rfl | ⟨2, _⟩ => rfl | ⟨3, _⟩ => rfl)
  have e3 : idx_main_v4 (idx_main_v5 (ix4 b h n m)) = ix3 h (0 : Fin 1) (0 : Fin 1) := funext fun a => Fin.ext (by
    match a with | ⟨0, _⟩ => rfl | ⟨1, _⟩ => rfl | ⟨2, _⟩ => rfl)
  simp only [e1, e2, e3]
  rfl

/-- Over `(b, h, n)`, the index with `k` put on the key axis is `(b, h, n, k)`. -/
theorem lift_key (hr : S4x12x2048x2048.Reduces [3] S4x12x2048) (b : Fin 4) (h : Fin 12) (n : Fin 2048)
    (k : Fin (S4x12x2048x2048.size 3)) : hr.lift (ix3 b h n) k = ix4 b h n (⟨k.val, k.isLt⟩ : Fin 2048) :=
  funext fun a => Fin.ext (by
    match a with | ⟨0, _⟩ => rfl | ⟨1, _⟩ => rfl | ⟨2, _⟩ => rfl | ⟨3, _⟩ => rfl)

/-- The maximum over the key axis, at `(b, h, n)`: the fold of `max` from −∞ over the row's scores. -/
theorem max_apply (b : Fin 4) (h : Fin 12) (n : Fin 2048) :
    val_main_v7 (F := Ideal) x0 x1 x3 (ix3 b h n) = rowMax (rowScores x0 x1 x3 b h n) := by
  have hr : S4x12x2048x2048.Reduces [3] S4x12x2048 := by decide
  unfold val_main_v7
  rw [Host.reduce_eq_fold_single FloatOps.maximumf _ _ reducesTo_S4x12x2048x2048_S4x12x2048_d3 hr h_S_]
  unfold rowMax
  refine congrArg (fun f => Finset.fold max (Ideal.ofBits .f32 0xFF800000#32) f (Finset.univ : Finset (Fin 2048))) ?_
  funext k
  show val_main_v6 (F := Ideal) x0 x1 x3 (hr.lift (ix3 b h n) k) = _
  rw [lift_key hr b h n k]
  exact scores_apply x0 x1 x3 b h n k

/-- The weight stage at `(b, h, n, m)`. -/
theorem weight_apply (b : Fin 4) (h : Fin 12) (n m : Fin 2048) :
    val_main_v13 (F := Ideal) x0 x1 x3 (ix4 b h n m)
      = Ideal.exp (rowScores x0 x1 x3 b h n m - max (Ideal.ofBits .f32 0xFF800000#32) (rowMax (rowScores x0 x1 x3 b h n))) := by
  rw [val_main_v13_apply, val_main_v12_apply, val_main_v11_apply, val_main_v10_apply, val_main_v9_apply, val_main_v8_apply,
    val_main_cst_1_apply, scores_apply]
  have e : idx_main_v10 (idx_main_v11 (ix4 b h n m)) = ix3 b h n := funext fun a => Fin.ext (by
    match a with | ⟨0, _⟩ => rfl | ⟨1, _⟩ => rfl | ⟨2, _⟩ => rfl)
  rw [e, max_apply]
  rfl

/-- The total of the weights at `(b, h, n)`, from the zero word. -/
theorem total_apply (b : Fin 4) (h : Fin 12) (n : Fin 2048) :
    val_main_v14 (F := Ideal) x0 x1 x3 (ix3 b h n)
      = Ideal.ofBits .f32 0x00000000#32 + ∑ m : Fin 2048,
          Ideal.exp (rowScores x0 x1 x3 b h n m - max (Ideal.ofBits .f32 0xFF800000#32) (rowMax (rowScores x0 x1 x3 b h n))) := by
  rw [val_main_v14_apply, val_main_cst_2_apply]
  refine congrArg (_ + ·) (Finset.sum_congr rfl fun m _ => ?_)
  have e : idx_main_v14 (ix3 b h n) m = ix4 b h n m := funext fun a => Fin.ext (by
    match a with | ⟨0, _⟩ => rfl | ⟨1, _⟩ => rfl | ⟨2, _⟩ => rfl | ⟨3, _⟩ => rfl)
  rw [e, weight_apply]

/-- THE REFERENCE'S RESULT AT AN ENTRY. -/
theorem result_apply (b : Fin 4) (h : Fin 12) (n : Fin 2048) (d : Fin 64) :
    val_main_v18 (F := Ideal) x0 x1 x2 x3 (ix4 b h n d)
      = normalisedBefore (rowScores x0 x1 x3 b h n) (fun m : Fin 2048 => x2 (ix4 b h m d)) := by
  rw [val_main_v18_apply]
  unfold normalisedBefore
  refine Finset.sum_congr rfl fun m _ => ?_
  have el : lidx_main_v18 (ix4 b h n d) m = ix4 b h n m := funext fun a => Fin.ext (by
    match a with | ⟨0, _⟩ => rfl | ⟨1, _⟩ => rfl | ⟨2, _⟩ => rfl | ⟨3, _⟩ => rfl)
  have er : ridx_main_v18 (ix4 b h n d) m = ix4 b h m d := funext fun a => Fin.ext (by
    match a with | ⟨0, _⟩ => rfl | ⟨1, _⟩ => rfl | ⟨2, _⟩ => rfl | ⟨3, _⟩ => rfl)
  have e15 : idx_main_v15 (idx_main_v16 (ix4 b h n m)) = ix3 b h n := funext fun a => Fin.ext (by
    match a with | ⟨0, _⟩ => rfl | ⟨1, _⟩ => rfl | ⟨2, _⟩ => rfl)
  rw [el, er, val_main_v17_apply, val_main_v16_apply, val_main_v15_apply, e15, weight_apply, total_apply]
  rfl

end Cert.ReferenceIdeal.Entry

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.FiniteInputs.lean ====
/-
  The precondition read back: every entry of every input array is a real.

  The precondition is the conjunction, over the four input arrays, of `jnp.all(jnp.abs(x) < inf)`: one flag per array, each
  an `and`-reduction of the elementwise test over every axis, the four flags joined by `and`. It is the flag 1 exactly when
  all four are, and each flag, true, says every entry of its array lies strictly between −∞ and +∞.
-/
import proofs.«163426_j91173565760008_2_alg».proof.Pre_finite_inputs
import proofs.«163426_j91173565760008_2_alg».proof.Proof.LibFiniteEntry
import Idealize.ShloMosaic.Lib.IdealHost

noncomputable section

namespace Cert.Pre_finite_inputs.Real

open Cert.Pre_finite_inputs Idealize.ShloMosaic Idealize.ShloMosaic.ValueIdx ProofLib

variable [Facts]
open Facts

instance : Subsingleton S_.Idx := ⟨fun a b => funext fun d => d.elim0⟩

/-- The comparison's right operand is the word of +∞ at every index. -/
theorem bound_apply {T : Shape} (h : S_.BroadcastsInDim T ![]) (i : T.Idx) :
    broadcastInDim T ![] h (constant (F := Ideal) S_ .f32 0x7F800000#32) i = FloatOps.ofBits (F := Ideal) .f32 0x7F800000#32 :=
  broadcastInDim_scalar_apply h _ i

/-- THE PRECONDITION, TRUE: every entry of the four arrays is a real. -/
theorem all_real (a0 a1 a2 : FVec Ideal S4x12x2048x64 .f32) (a3 : FVec Ideal S12x1x1 .f32)
    (h : fn (F := Ideal) a0 a1 a2 a3 = fun _ => 1#1) :
    (∀ i, ∃ r : ℝ, (a0 i : EReal) = (r : EReal)) ∧ (∀ i, ∃ r : ℝ, (a1 i : EReal) = (r : EReal))
      ∧ (∀ i, ∃ r : ℝ, (a2 i : EReal) = (r : EReal)) ∧ (∀ i, ∃ r : ℝ, (a3 i : EReal) = (r : EReal)) := by
  have h0 := congrFun h ix0
  dsimp only [fn, fn_part1] at h0
  obtain ⟨h012, h3⟩ := (Finite.andi_eq_one _ _).mp h0
  obtain ⟨h01, h2⟩ := (Finite.andi_eq_one _ _).mp h012
  obtain ⟨h0', h1⟩ := (Finite.andi_eq_one _ _).mp h01
  exact ⟨Finite.all_real_of_all_abs_lt_inf a0 _ (bound_apply _) _ _ h_S_ ix0 h0',
    Finite.all_real_of_all_abs_lt_inf a1 _ (bound_apply _) _ _ h_S_ ix0 h1,
    Finite.all_real_of_all_abs_lt_inf a2 _ (bound_apply _) _ _ h_S_ ix0 h2,
    Finite.all_real_of_all_abs_lt_inf a3 _ (bound_apply _) _ _ h_S_ ix0 h3⟩

end Cert.Pre_finite_inputs.Real

end
-- ==== Proof.Bridge.lean ====
/-
  The two programs compute one function of real inputs.

  At an entry `(b, h, n, d)` the kernel's array holds query row `(b, h, n)`'s attention output in column `d` with the head's
  temperature folded into the query and the weighted sum normalised after it is taken; the reference's holds the same
  with the temperature applied to the inner products and every weight normalised before the sum. Where the queries, keys,
  values and log-scales are reals, the head's temperature is a real and the two are equal (`Attn.attention_row_eq`).
-/
import proofs.«163426_j91173565760008_2_alg».proof.Proof.KernelArray
import proofs.«163426_j91173565760008_2_alg».proof.Proof.RefEntry

noncomputable section

open scoped BigOperators

namespace Cert.Bridge

open Idealize.ShloMosaic Idealize.ShloMosaic.ValueIdx Cert.Attn

/-- THE BRIDGE: on arrays of reals, the kernel's whole-array function is the reference's last stage. -/
theorem attention_eq_reference (a0 a1 a2 : Cert.ReferenceIdeal.Entry.Arr4) (a3 : Cert.ReferenceIdeal.Entry.Arr3)
    (h0 : ∀ i, ∃ r : ℝ, (a0 i : EReal) = (r : EReal)) (h1 : ∀ i, ∃ r : ℝ, (a1 i : EReal) = (r : EReal))
    (h2 : ∀ i, ∃ r : ℝ, (a2 i : EReal) = (r : EReal)) (h3 : ∀ j, ∃ r : ℝ, (a3 j : EReal) = (r : EReal)) :
    Cert.KernelIdeal.Whole.attention a0 a1 a2 (fun j => temperature (a3 j))
      = Cert.ReferenceIdeal.Read.val_main_v18 (F := Ideal) a0 a1 a2 a3 := by
  funext i
  obtain ⟨b, h, n, d, rfl⟩ : ∃ (b : Fin 4) (h : Fin 12) (n : Fin 2048) (d : Fin 64), i = ix4 b h n d :=
    ⟨i 0, i 1, i 2, i 3, eq_ix4 i⟩
  rw [Cert.ReferenceIdeal.Entry.result_apply]
  unfold Cert.ReferenceIdeal.Entry.rowScores
  show normalisedAfter
      (scoresFolded (fun kk : Fin 64 => a0 (ix4 b h n kk)) (temperature (a3 (ix3 h (0 : Fin 1) (0 : Fin 1))))
        (fun (mm : Fin 2048) (kk : Fin 64) => a1 (ix4 b h mm kk)))
      (fun mm : Fin 2048 => a2 (ix4 b h mm d)) = _
  choose q0 hq0 using h0
  choose q1 hq1 using h1
  choose q2 hq2 using h2
  choose q3 hq3 using h3
  obtain ⟨c, hc⟩ := temperature_real (q3 (ix3 h (0 : Fin 1) (0 : Fin 1)))
  simp only [hq0, hq1, hq2, hq3, hc]
  exact attention_row_eq (fun kk : Fin 64 => q0 (ix4 b h n kk)) c (fun (mm : Fin 2048) (kk : Fin 64) => q1 (ix4 b h mm kk))
    (fun mm : Fin 2048 => q2 (ix4 b h mm d))

end Cert.Bridge

end
-- ==== Proof.lean ====
/-
  The proof of `Cert.Claim`: the attention kernel against its reference.

  Both programs compute, for every batch `b`, head `h`, query position `n` and column `d`,
      out (b,h,n,d) = ∑ m, w m · v (b,h,m,d) / ∑ m, w m,   w m = exp (s m − max_m s m),   s m = c h · ⟨q (b,h,n,·), k (b,h,m,·)⟩,
  with `c h = exp (min (log-scale h, 4.6052))`. The kernel folds `c h` into the query row before the product, takes the
  weighted sum with the weights in a narrower float format (the identity on extended reals), and multiplies by the
  reciprocal of the weights' total; the reference scales the products, divides every weight by the total, then sums.
  * The three frames: the kernel's two by the generated frame proofs, the reference's by its generated run.
  * `preserves`: the idealisation rewrote nothing, so there is nothing to state.
  * `algebraic`: the kernel's run ends with its result at `Whole.attention` of the arguments (Proof/KernelArray.lean, over
    Proof/KernelEntry.lean), the reference's at its last stage (the generated run), which at an entry is
    Proof/RefEntry.lean's formula; under the precondition every input entry is a real (Proof/FiniteInputs.lean) and the two
    are one function (Proof/Bridge.lean, by the law of Proof/AttnRow.lean).
-/
import proofs.«163426_j91173565760008_2_alg».proof.Defs
import proofs.«163426_j91173565760008_2_alg».proof.Proof.Gen.Kernel
import proofs.«163426_j91173565760008_2_alg».proof.Proof.Gen.Kernel.Skeleton
import proofs.«163426_j91173565760008_2_alg».proof.Proof.Gen.Kernel.Launch
import proofs.«163426_j91173565760008_2_alg».proof.Proof.Gen.Kernel.Points
import proofs.«163426_j91173565760008_2_alg».proof.Proof.Gen.Kernel.Frame
import proofs.«163426_j91173565760008_2_alg».proof.Proof.Gen.KernelIdeal
import proofs.«163426_j91173565760008_2_alg».proof.Proof.Gen.KernelIdeal.Skeleton
import proofs.«163426_j91173565760008_2_alg».proof.Proof.Gen.KernelIdeal.Launch
import proofs.«163426_j91173565760008_2_alg».proof.Proof.Gen.KernelIdeal.Points
import proofs.«163426_j91173565760008_2_alg».proof.Proof.Gen.KernelIdeal.Frame
import proofs.«163426_j91173565760008_2_alg».proof.Proof.Gen.ReferenceIdeal
import proofs.«163426_j91173565760008_2_alg».proof.Proof.Gen.Pre_finite_inputs
import proofs.«163426_j91173565760008_2_alg».proof.Proof.Gen.KernelIdeal.Value
import proofs.«163426_j91173565760008_2_alg».proof.Proof.Gen.ReferenceIdeal.Run
import proofs.«163426_j91173565760008_2_alg».proof.Proof.Gen.ReferenceIdeal.Read
import proofs.«163426_j91173565760008_2_alg».proof.Proof.KernelArray
import proofs.«163426_j91173565760008_2_alg».proof.Proof.RefEntry
import proofs.«163426_j91173565760008_2_alg».proof.Proof.FiniteInputs
import proofs.«163426_j91173565760008_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the four arguments, all of whose entries are reals, the kernel's result array and the
    reference's are the same extended reals, entry by entry. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2.1, (hagree c).2.2.2]
  obtain ⟨r0, r1, r2, r3⟩ := Cert.Pre_finite_inputs.Real.all_real _ _ _ _ (hpre c)
  exact (Cert.Bridge.attention_eq_reference _ _ _ _ r0 r1 r2 r3).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
